-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_

variable [Facts]

def fn {F : FTy → Type} [FloatOps F] (main_arg0 : FVec F S4x2048x2048 .f32) (main_arg1 : FVec F S2048x8192 .f32) (main_arg2 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  main_v13
-- ==== Kernel.lean ====
abbrev S4x2048x2048 : Shape := ⟨3, ![4, 2048, 2048]⟩
abbrev S2048x8192 : Shape := ⟨2, ![2048, 8192]⟩
abbrev S_ : Shape := ⟨0, ![]⟩
abbrev S8192x2048 : Shape := ⟨2, ![8192, 2048]⟩
abbrev S8192x8192 : Shape := ⟨2, ![8192, 8192]⟩
abbrev S64x2048 : Shape := ⟨2, ![64, 2048]⟩
abbrev S64x8192 : Shape := ⟨2, ![64, 8192]⟩
abbrev S64 : Shape := ⟨1, ![64]⟩
abbrev S64x1 : Shape := ⟨2, ![64, 1]⟩
abbrev S128x8192 : Shape := ⟨2, ![128, 8192]⟩
abbrev S128x2048 : Shape := ⟨2, ![128, 2048]⟩

abbrev nBuf : Space → Nat
  | .hbm => 50
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | .hbm, ⟨21, _⟩ => ⟨S2048x8192, .f32⟩
  | .hbm, ⟨22, _⟩ => ⟨S2048x8192, .f32⟩
  | .hbm, ⟨23, _⟩ => ⟨S2048x8192, .bf16⟩
  | .hbm, ⟨24, _⟩ => ⟨S2048x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2048x8192, .f32⟩
  | .hbm, ⟨32, _⟩ => ⟨S2048x8192, .f32⟩
  | .hbm, ⟨33, _⟩ => ⟨S2048x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2048x8192, .f32⟩
  | .hbm, ⟨38, _⟩ => ⟨S2048x8192, .f32⟩
  | .hbm, ⟨39, _⟩ => ⟨S_, .f32⟩
  | .hbm, ⟨40, _⟩ => ⟨S2048x8192, .f32⟩
  | .hbm, ⟨41, _⟩ => ⟨S2048x8192, .f32⟩
  | .hbm, ⟨42, _⟩ => ⟨S2048x8192, .f32⟩
  | .hbm, ⟨43, _⟩ => ⟨S2048x8192, .f32⟩
  | .hbm, ⟨44, _⟩ => ⟨S2048x8192, .bf16⟩
  | .hbm, ⟨45, _⟩ => ⟨S8192x2048, .f32⟩
  | .hbm, ⟨46, _⟩ => ⟨S8192x2048, .bf16⟩
  | .hbm, ⟨47, _⟩ => ⟨S8192x8192, .bf16⟩
  | .hbm, ⟨48, _⟩ => ⟨S8192x2048, .f32⟩
  | .hbm, ⟨49, _⟩ => ⟨S4x2048x2048, .f32⟩
  | .local _ .vmem, ⟨0, _⟩ => ⟨S64x2048, .bf16⟩
  | .local _ .vmem, ⟨1, _⟩ => ⟨S64x2048, .bf16⟩
  | .local _ .vmem, ⟨2, _⟩ => ⟨S2048x8192, .bf16⟩
  | .local _ .vmem, ⟨3, _⟩ => ⟨S64x8192, .bf16⟩
  | .local _ .vmem, ⟨4, _⟩ => ⟨S64x8192, .bf16⟩
  | .local _ .vmem, ⟨5, _⟩ => ⟨S128x8192, .bf16⟩
  | .local _ .vmem, ⟨6, _⟩ => ⟨S128x8192, .bf16⟩
  | .local _ .vmem, ⟨7, _⟩ => ⟨S2048x8192, .bf16⟩
  | .local _ .vmem, ⟨8, _⟩ => ⟨S128x2048, .f32⟩
  | .local _ .vmem, ⟨9, _⟩ => ⟨S128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_cst_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_cst_8 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S2048x8192_S_d0_1 : S2048x8192.ReducesTo [0, 1] S_
  h_S_ : 0 < S_.numel
  bcast_S_S2048x8192 : S_.BroadcastsInDim S2048x8192 (![] : Fin 0 → Fin S2048x8192.rank)
  bitsLt_bf16_f32 : FTy.bits .bf16 < FTy.bits .f32
  shapeCasts_S4x2048x2048_S8192x2048 : S4x2048x2048.ShapeCasts S8192x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x8192_S2048x8192_0_0 : ∀ a, (![0, 0] : Fin 2 → Nat) a + S2048x8192.size a ≤ S2048x8192.size a
  h_S2048x8192 : 0 < S2048x8192.numel
  shapeCasts_S2048x8192_S2048x8192 : S2048x8192.ShapeCasts S2048x8192
  reduces_S64x8192_S64 : S64x8192.Reduces [1] S64
  shapeCasts_S64_S64x1 : S64.ShapeCasts S64x1
  broadcasts_S64x1_S64x8192 : S64x1.Broadcasts S64x8192
  inb_S64x8192_S64x8192_0_0 : ∀ a, (![0, 0] : Fin 2 → Nat) a + S64x8192.size a ≤ S64x8192.size a
  h_S64x8192 : 0 < S64x8192.numel
  packedbf16_S64x8192_S64x8192_0_0 : (Rect.unit (s := S64x8192) ![0, 0] S64x8192.size inb_S64x8192_S64x8192_0_0).PackedRows (EltTy.packing .bf16)
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S128x2048_S128x2048_0_0 : ∀ a, (![0, 0] : Fin 2 → Nat) a + S128x2048.size a ≤ S128x2048.size a
  h_S128x2048 : 0 < S128x2048.numel
  shapeCasts_S8192x2048_S4x2048x2048 : S8192x2048.ShapeCasts S4x2048x2048
  dot_S64x2048_S2048x8192_S64x8192_1_0_0_1_n_n_wf : DotDims.WF S64x2048 S2048x8192 S64x8192 [1] [0] [0] [1] [] []
  dot_S128x8192_S2048x8192_S128x2048_1_1_0_0_n_n_wf : DotDims.WF S128x8192 S2048x8192 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S8192x2048.size a
  hwx0_0 : ∀ i : grid0.Coords, EltTy.bits .bf16 = 32 ∨ (Rect.block (s := S8192x2048) S64x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x8192.size a ≤ S2048x8192.size a
  hwx0_1 : ∀ i : grid0.Coords, EltTy.bits .bf16 = 32 ∨ (Rect.block (s := S2048x8192) S2048x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S8192x8192.size a
  hwx0_2 : ∀ i : grid0.Coords, EltTy.bits .bf16 = 32 ∨ (Rect.block (s := S8192x8192) S64x8192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S8192x8192.size a
  hwx1_0 : ∀ i : grid1.Coords, EltTy.bits .bf16 = 32 ∨ (Rect.block (s := S8192x8192) S128x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x8192.size a ≤ S2048x8192.size a
  hwx1_1 : ∀ i : grid1.Coords, EltTy.bits .bf16 = 32 ∨ (Rect.block (s := S2048x8192) S2048x8192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S8192x2048.size a
  hwx1_2 : ∀ i : grid1.Coords, EltTy.bits .f32 = 32 ∨ (Rect.block (s := S8192x2048) S128x2048.size (cc1_transform_2 i) (hinb1_2 i)).WholeWords (EltTy.packing .f32)

variable [Facts₀]

def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf
def dot_S128x8192_S2048x8192_S128x2048_1_1_0_0_n_n : DotDims S128x8192 S2048x8192 S128x2048 where
  lhsContracting := [1]
  rhsContracting := [1]
  lhsNonContracting := [0]
  rhsNonContracting := [0]
  lhsBatch := []
  rhsBatch := []
  wf := dot_S128x8192_S2048x8192_S128x2048_1_1_0_0_n_n_wf

abbrev win0_0 : Pipeline.Window sig grid0 :=
  Pipeline.Window.ofSpec (Memref.whole main_v23) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2048x8192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x2048 : Shape := ⟨3, ![4, 2048, 2048]⟩
abbrev S2048x8192 : Shape := ⟨2, ![2048, 8192]⟩
abbrev S_ : Shape := ⟨0, ![]⟩
abbrev S4x2048x8192 : Shape := ⟨3, ![4, 2048, 8192]⟩
abbrev S4x2048 : Shape := ⟨2, ![4, 2048]⟩
abbrev S4x2048x1 : Shape := ⟨3, ![4, 2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S2048x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x8192, .f32⟩
  | .hbm, ⟨24, _⟩ => ⟨S2048x8192, .f32⟩
  | .hbm, ⟨25, _⟩ => ⟨S2048x8192, .f32⟩
  | .hbm, ⟨26, _⟩ => ⟨S2048x8192, .f32⟩
  | .hbm, ⟨27, _⟩ => ⟨S4x2048x8192, .f32⟩
  | .hbm, ⟨28, _⟩ => ⟨S_, .f32⟩
  | .hbm, ⟨29, _⟩ => ⟨S4x2048x8192, .f32⟩
  | .hbm, ⟨30, _⟩ => ⟨S4x2048x8192, .f32⟩
  | .hbm, ⟨31, _⟩ => ⟨S4x2048x8192, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x8192, .f32⟩
  | .hbm, ⟨39, _⟩ => ⟨S4x2048x8192, .f32⟩
  | .hbm, ⟨40, _⟩ => ⟨S_, .f32⟩
  | .hbm, ⟨41, _⟩ => ⟨S4x2048x8192, .f32⟩
  | .hbm, ⟨42, _⟩ => ⟨S4x2048x8192, .f32⟩
  | .hbm, ⟨43, _⟩ => ⟨S4x2048x8192, .f32⟩
  | .hbm, ⟨44, _⟩ => ⟨S4x2048x8192, .f32⟩
  | .hbm, ⟨45, _⟩ => ⟨S4x2048x8192, .f32⟩
  | .hbm, ⟨46, _⟩ => ⟨S_, .f32⟩
  | .hbm, ⟨47, _⟩ => ⟨S4x2048x8192, .f32⟩
  | .hbm, ⟨48, _⟩ => ⟨S4x2048x8192, .f32⟩
  | .hbm, ⟨49, _⟩ => ⟨S4x2048x8192, .f32⟩
  | .hbm, ⟨50, _⟩ => ⟨S4x2048x8192, .f32⟩
  | .hbm, ⟨51, _⟩ => ⟨S2048x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2048x8192, .f32⟩
  | .hbm, ⟨59, _⟩ => ⟨S2048x8192, .f32⟩
  | .hbm, ⟨60, _⟩ => ⟨S2048x8192, .f32⟩
  | .hbm, ⟨61, _⟩ => ⟨S2048x8192, .f32⟩
  | .hbm, ⟨62, _⟩ => ⟨S2048x8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2048x8192, .f32⟩
  | .hbm, ⟨67, _⟩ => ⟨S2048x8192, .f32⟩
  | .hbm, ⟨68, _⟩ => ⟨S_, .f32⟩
  | .hbm, ⟨69, _⟩ => ⟨S2048x8192, .f32⟩
  | .hbm, ⟨70, _⟩ => ⟨S2048x8192, .f32⟩
  | .hbm, ⟨71, _⟩ => ⟨S2048x8192, .f32⟩
  | .hbm, ⟨72, _⟩ => ⟨S2048x8192, .f32⟩
  | .hbm, ⟨73, _⟩ => ⟨S2048x8192, .f32⟩
  | .hbm, ⟨74, _⟩ => ⟨S2048x8192, .f32⟩
  | .hbm, ⟨75, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_cst : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_cst_12 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩

abbrev nD : Nat := 1
abbrev τ : Topo := Topo.v7x

variable {F : FTy → Type} [FloatOps F]

class Facts₀ : Prop where
  reducesTo_S2048x8192_S_d0_1 : S2048x8192.ReducesTo [0, 1] S_
  h_S_ : 0 < S_.numel
  bcast_S_S2048x8192 : S_.BroadcastsInDim S2048x8192 (![] : Fin 0 → Fin S2048x8192.rank)
  bcast_S_S4x2048x8192 : S_.BroadcastsInDim S4x2048x8192 (![] : Fin 0 → Fin S4x2048x8192.rank)
  reducesTo_S4x2048x8192_S4x2048_d2 : S4x2048x8192.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x8192_0_1_2 : S4x2048x1.BroadcastsInDim S4x2048x8192 (![0, 1, 2] : Fin 3 → Fin S4x2048x8192.rank)
  dot_S4x2048x2048_S2048x8192_S4x2048x8192_2_0_01_1_n_n_wf : DotDims.WF S4x2048x2048 S2048x8192 S4x2048x8192 [2] [0] [0, 1] [1] [] []
  dot_S4x2048x8192_S2048x8192_S4x2048x2048_2_1_01_0_n_n_wf : DotDims.WF S4x2048x8192 S2048x8192 S4x2048x2048 [2] [1] [0, 1] [0] [] []

variable [Facts₀]

def dot_S4x2048x2048_S2048x8192_S4x2048x8192_2_0_01_1_n_n : DotDims S4x2048x2048 S2048x8192 S4x2048x8192 where
  lhsContracting := [2]
  rhsContracting := [0]
  lhsNonContracting := [0, 1]
  rhsNonContracting := [1]
  lhsBatch := []
  rhsBatch := []
  wf := dot_S4x2048x2048_S2048x8192_S4x2048x8192_2_0_01_1_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.FiniteArgs.lean ====
/-
  The precondition read back at the extended reals. Per float argument the printed predicate compares |x| with the
  pattern 0x7F800000 elementwise (strictly below), folds the comparisons by `and` over every axis from the constant
  true, and joins the three folds by `and`. The pattern denotes +∞, and |x| = max x (-x), so the predicate being true
  says that no entry of any argument is +∞ or -∞: every entry is a real number.
-/
import proofs.«160328_j61220463837807_1_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteArgs

open Idealize.ShloMosaic

/-- The rank-0 shape has one index. -/
instance : Subsingleton Cert.Pre_finite_inputs.S_.Idx := ⟨fun a b => funext fun d => d.elim0⟩

/-- The f32 pattern 0x7F800000 — sign clear, exponent all ones, fraction zero — denotes +∞. -/
theorem inf_bits : Ideal.ofBits .f32 0x7F800000#32 = (⊤ : EReal) := by
  simp [Ideal.ofBits, Ideal.ieee]

/-- An extended real x with max x (-x) < +∞ is neither +∞ (then max x (-x) = +∞) nor -∞ (then -x = +∞): it is a real. -/
theorem real_of_abs_lt_top (x : EReal) (h : max x (-x) < ⊤) : ∃ r : ℝ, x = (r : EReal) := by
  induction x using EReal.rec with
  | bot => simp at h
  | coe r => exact ⟨r, rfl⟩
  | top => simp at h

/-- A truth value written as a one-bit word is the word 1 exactly when it is true. -/
theorem ofBool_eq_one (b : Bool) : BitVec.ofBool b = 1#1 ↔ b = true := by cases b <;> decide

/-- One entry: the printed comparison |x| < 0x7F800000 being true makes x a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  rw [Ideal.hostAbsf_def, Ideal.absf_def, Ideal.ofBits_def, inf_bits, Ideal.cmpf_def] at h
  exact real_of_abs_lt_top x (of_decide_eq_true ((ofBool_eq_one _).1 h))

/-- One array of any shape: if the fold by `and`, over all axes, of the elementwise comparison |x| < +∞ is true,
    then every entry of x is a real. -/
theorem all_real {s : Shape} {axes : List (Fin s.rank)} (x : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x) (broadcastInDim s dims hb (constant Cert.Pre_finite_inputs.S_ .f32 0x7F800000#32)))
          init hr hu j = 1#1) :
    ∀ i, ∃ r : ℝ, x i = (r : EReal) := fun i =>
  real_of_cmp (x i) (Host.reduce_andi_all _ init hr hu j e i)

/-- The precondition's verdict being true makes every entry of each of the three arguments a real number. -/
theorem args_real [Cert.Pre_finite_inputs.Facts]
    (a0 : FVec Ideal Cert.Pre_finite_inputs.S4x2048x2048 .f32) (a1 a2 : FVec Ideal Cert.Pre_finite_inputs.S2048x8192 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [Cert.Pre_finite_inputs.fn, andi] at e
  obtain ⟨e01, e2⟩ := IntOp.andi_eq_one.1 e
  obtain ⟨e0, e1⟩ := IntOp.andi_eq_one.1 e01
  exact ⟨all_real a0 _ _ _ _ _ _ e0, all_real a1 _ _ _ _ _ _ e1, all_real a2 _ _ _ _ _ _ e2⟩

end Cert.FiniteArgs

end
-- ==== Proof.Spec.lean ====
/-
  The function both programs compute, on the extended reals, one output row at a time.

  A weight matrix `c` (2048 × 8192) is replaced by its ternary form: with the scale `s = max (mean |c|, ε)`
  (the mean over all 2048 · 8192 entries), entry `i` becomes `s · clip (round (c i / s), -1, 1)`, rounding to
  nearest with ties to even. A row `x` of 2048 inputs is multiplied into the first ternary matrix, passed through
  `max (·, 0)` and squared; the 8192 results are scaled by the row's largest value `M = max (maxₕ aₕ, ε)` to
  `round (aₕ / M · 255) / 255 · M`; the result row is multiplied into the TRANSPOSE of the second ternary matrix.
  Every float literal is kept as the value of its bit pattern.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- The shape of a weight matrix. -/
abbrev SW : Shape := ⟨2, ![2048, 8192]⟩
/-- The shape of the input and of the result. -/
abbrev SX : Shape := ⟨3, ![4, 2048, 2048]⟩

/-- `ε`, the floor of a scale (the single-precision value nearest `1e-5`). -/
abbrev eps : EReal := Ideal.ofBits .f32 0x3727C5AC#32
/-- The number of entries of a weight matrix, `2 ^ 24`. -/
abbrev cnt : EReal := Ideal.ofBits .f32 0x4B800000#32
/-- The number of quantization steps, `255`. -/
abbrev steps : EReal := Ideal.ofBits .f32 0x437F0000#32
/-- The clip's lower bound, `-1`. -/
abbrev lo : EReal := Ideal.ofBits .f32 0xBF800000#32
/-- The clip's upper bound, `1`. -/
abbrev hi : EReal := Ideal.ofBits .f32 0x3F800000#32
/-- `0`. -/
abbrev zero : EReal := Ideal.ofBits .f32 0x00000000#32
/-- `-∞`, the maximum's neutral element. -/
abbrev ninf : EReal := Ideal.ofBits .f32 0xFF800000#32

/-- Rounding to the nearest integer, ties to even; the infinities are fixed. -/
abbrev rne (a : EReal) : EReal := Ideal.liftRound Ideal.roundHalfEven a

/-- The scale of a weight matrix: the mean of the absolute values of its entries, at least `ε`. -/
def scale (c : SW.Idx → EReal) : EReal :=
  max (Ideal.div (zero + ∑ j : SW.Idx, max (c j) (-(c j))) cnt) eps

/-- The ternary form of a weight matrix at entry `i`. -/
def tern (c : SW.Idx → EReal) (i : SW.Idx) : EReal :=
  scale c * min hi (max lo (rne (Ideal.div (c i) (scale c))))

/-- Column `h` of the first product: the row against column `h` of `w`. -/
def preRow (row : Fin 2048 → EReal) (w : SW.Idx → EReal) (h : Fin 8192) : EReal :=
  ∑ k : Fin 2048, row k * w (ix2 k h)

/-- The squared positive part of the first product. -/
def actRow (row : Fin 2048 → EReal) (w : SW.Idx → EReal) (h : Fin 8192) : EReal :=
  max (preRow row w h) zero * max (preRow row w h) zero

/-- The row's largest activation, at least `ε`. -/
def mxRow (row : Fin 2048 → EReal) (w : SW.Idx → EReal) : EReal :=
  max ((Finset.univ : Finset (Fin 8192)).fold max ninf (actRow row w)) eps

/-- The activation quantized to 255 steps of the row's largest one. -/
def hidRow (row : Fin 2048 → EReal) (w : SW.Idx → EReal) (h : Fin 8192) : EReal :=
  Ideal.div (rne (Ideal.div (actRow row w h) (mxRow row w) * steps)) steps * mxRow row w

/-- Column `d` of the second product: the hidden row against ROW `d` of `w`. -/
def outRow (hrow : Fin 8192 → EReal) (w : SW.Idx → EReal) (d : Fin 2048) : EReal :=
  ∑ k : Fin 8192, hrow k * w (ix2 d k)

/-- The whole result: entry `(b, s, d)` from row `(b, s)` of the input and the two weight matrices. -/
def result (x : SX.Idx → EReal) (c1 c2 : SW.Idx → EReal) (i : SX.Idx) : EReal :=
  outRow (hidRow (fun k => x (ix3 (i 0) (i 1) k)) (tern c1)) (tern c2) (i 2)

end Cert.Mlp

end
-- ==== Proof.Reals.lean ====
/-
  Extended reals that are real numbers. The straight-through form `a + (b - a)` is `b` as soon as `a` is a real
  number (at `a = ±∞` the difference is not defined and the form is not `b`), so the reference's rounding and clipping
  agree with the kernel's wherever their argument is finite. This module has: the closure of "is a real number"
  under the operations the two programs use; the values of their float literals; the straight-through law; and the
  finiteness of every quantity the law is applied to, for finite inputs.
-/
import proofs.«160328_j61220463837807_1_alg».proof.Proof.Spec

noncomputable section

open scoped BigOperators

namespace Cert.Mlp

open Idealize.ShloMosaic Idealize.ShloMosaic.ValueIdx

/-- An extended real that is a real number. -/
def IsReal (a : EReal) : Prop := ∃ r : ℝ, a = (r : EReal)

theorem IsReal.ne_top {a : EReal} (h : IsReal a) : a ≠ ⊤ := by
  obtain ⟨r, rfl⟩ := h; exact EReal.coe_ne_top r

theorem IsReal.ne_bot {a : EReal} (h : IsReal a) : a ≠ ⊥ := by
  obtain ⟨r, rfl⟩ := h; exact EReal.coe_ne_bot r

/-- Neither infinity: a real number. -/
theorem isReal_of_ne {a : EReal} (h1 : a ≠ ⊥) (h2 : a ≠ ⊤) : IsReal a :=
  ⟨a.toReal, (EReal.coe_toReal h2 h1).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A quotient of real numbers with a nonzero divisor. -/
theorem IsReal.div {a b : EReal} (ha : IsReal a) (hb : IsReal b) (h0 : b ≠ 0) : IsReal (Ideal.div a b) := by
  obtain ⟨r, rfl⟩ := ha; obtain ⟨s, rfl⟩ := hb
  have hs : s ≠ 0 := fun e => h0 (by rw [e]; rfl)
  rw [Ideal.div_coe hs]
  exact ⟨r * (1 / s), (EReal.coe_mul r (1 / s)).symm⟩

/-- Rounding a real number gives a real number. -/
theorem IsReal.rne {a : EReal} (ha : IsReal a) : IsReal (rne a) := by
  obtain ⟨r, rfl⟩ := ha; exact ⟨((Ideal.roundHalfEven r : ℤ) : ℝ), rfl⟩

/-- A finite sum of real numbers. -/
theorem isReal_sum {ι : Type} (s : Finset ι) (f : ι → EReal) (h : ∀ i ∈ s, IsReal (f i)) : IsReal (∑ i ∈ s, f i) :=
  Finset.sum_induction f IsReal (fun _ _ => IsReal.add) ⟨0, rfl⟩ h

/-- The straight-through form at a real number `a`: `a + (b - a) = b` for every extended real `b`. -/
theorem straight_through {a : EReal} (ha : IsReal a) (b : EReal) : a + (b - a) = b := by
  obtain ⟨r, rfl⟩ := ha
  induction b using EReal.rec with
  | bot => simp
  | coe s => rw [← EReal.coe_sub, ← EReal.coe_add]; congr 1; ring
  | top => simp

/-! ## The literals -/

theorem zero_eq : zero = 0 := Ideal.ofBits_zero_f32

theorem eps_pos : ∃ e : ℝ, 0 < e ∧ eps = (e : EReal) := by
  refine ⟨_, ?_, by simp [eps, Ideal.ofBits, Ideal.ieee, -EReal.coe_mul]; rfl⟩
  norm_num

theorem cnt_eq : cnt = ((16777216 : ℝ) : EReal) := by
  simp [cnt, Ideal.ofBits, Ideal.ieee, -EReal.coe_mul]; norm_num

theorem steps_eq : steps = ((255 : ℝ) : EReal) := by
  simp [steps, Ideal.ofBits, Ideal.ieee, -EReal.coe_mul]; norm_num

theorem lo_eq : lo = ((-1 : ℝ) : EReal) := by
  simp [lo, Ideal.ofBits, Ideal.ieee, -EReal.coe_mul]; norm_num

theorem hi_eq : hi = ((1 : ℝ) : EReal) := by
  simp [hi, Ideal.ofBits, Ideal.ieee, -EReal.coe_mul]; norm_num

theorem ninf_eq : ninf = ⊥ := by
  simp [ninf, Ideal.ofBits, Ideal.ieee]

end Cert.Mlp

end
-- ==== Proof.Finite.lean ====
/-
  For finite inputs every quantity the straight-through law is applied to is a real number: the scale of a weight
  matrix is a positive real (a mean of absolute values of reals, floored at `ε > 0`), so the quotient `c i / s` is a
  real and so is the ternary entry; a row's products, their sums, the squared positive parts are reals; the row's
  largest activation floored at `ε` is a positive real (a maximum of reals from `-∞` is not `+∞`, and the floor
  lifts it off `-∞`), so `a / M · 255` is a real.
-/
import proofs.«160328_j61220463837807_1_alg».proof.Proof.Reals

noncomputable section

open scoped BigOperators

namespace Cert.Mlp

open Idealize.ShloMosaic Idealize.ShloMosaic.ValueIdx

theorem isReal_zero : IsReal zero := ⟨0, zero_eq.trans EReal.coe_zero.symm⟩
theorem isReal_steps : IsReal steps := ⟨_, steps_eq⟩
theorem isReal_lo : IsReal lo := ⟨_, lo_eq⟩
theorem isReal_hi : IsReal hi := ⟨_, hi_eq⟩
theorem isReal_cnt : IsReal cnt := ⟨_, cnt_eq⟩

theorem steps_ne_zero : steps ≠ 0 := by
  rw [steps_eq]; exact_mod_cast (by norm_num : (255 : ℝ) ≠ 0)

theorem cnt_ne_zero : cnt ≠ 0 := by
  rw [cnt_eq]; exact_mod_cast (by norm_num : (16777216 : ℝ) ≠ 0)

/-- The scale of a matrix of reals is a positive real. -/
theorem scale_pos {c : SW.Idx → EReal} (hc : ∀ j, IsReal (c j)) : ∃ s : ℝ, 0 < s ∧ scale c = (s : EReal) := by
  obtain ⟨e, he, hε⟩ := eps_pos
  have hsum : IsReal (zero + ∑ j : SW.Idx, max (c j) (-(c j))) :=
    isReal_zero.add (isReal_sum _ _ fun j _ => (hc j).max (hc j).neg)
  obtain ⟨q, hq⟩ := hsum.div isReal_cnt cnt_ne_zero
  refine ⟨max q e, lt_max_of_lt_right he, ?_⟩
  unfold scale
  rw [hq, hε]
  exact (EReal.coe_strictMono.monotone.map_max).symm

theorem scale_real {c : SW.Idx → EReal} (hc : ∀ j, IsReal (c j)) : IsReal (scale c) := by
  obtain ⟨s, _, e⟩ := scale_pos hc; exact ⟨s, e⟩

theorem scale_ne_zero {c : SW.Idx → EReal} (hc : ∀ j, IsReal (c j)) : scale c ≠ 0 := by
  obtain ⟨s, hs, e⟩ := scale_pos hc
  rw [e]; exact_mod_cast hs.ne'

/-- An entry of a matrix of reals over its scale is a real. -/
theorem quot_real {c : SW.Idx → EReal} (hc : ∀ j, IsReal (c j)) (i : SW.Idx) : IsReal (Ideal.div (c i) (scale c)) :=
  (hc i).div (scale_real hc) (scale_ne_zero hc)

/-- The ternary form of a matrix of reals is a matrix of reals. -/
theorem tern_real {c : SW.Idx → EReal} (hc : ∀ j, IsReal (c j)) (i : SW.Idx) : IsReal (tern c i) :=
  (scale_real hc).mul (isReal_hi.min (isReal_lo.max (quot_real hc i).rne))

variable {row : Fin 2048 → EReal} {w : SW.Idx → EReal}

theorem preRow_real (hr : ∀ k, IsReal (row k)) (hw : ∀ i, IsReal (w i)) (h : Fin 8192) : IsReal (preRow row w h) :=
  isReal_sum _ _ fun k _ => (hr k).mul (hw _)

theorem actRow_real (hr : ∀ k, IsReal (row k)) (hw : ∀ i, IsReal (w i)) (h : Fin 8192) : IsReal (actRow row w h) :=
  ((preRow_real hr hw h).max isReal_zero).mul ((preRow_real hr hw h).max isReal_zero)

/-- The row's largest activation, floored at `ε`, is a positive real. -/
theorem mxRow_pos (hr : ∀ k, IsReal (row k)) (hw : ∀ i, IsReal (w i)) : ∃ M : ℝ, 0 < M ∧ mxRow row w = (M : EReal) := by
  obtain ⟨e, he, hε⟩ := eps_pos
  have hRtop : (Finset.univ : Finset (Fin 8192)).fold max ninf (actRow row w) ≠ ⊤ :=
    ((Finset.fold_max_lt ⊤).mpr ⟨by rw [ninf_eq]; exact bot_lt_top,
      fun x _ => lt_top_iff_ne_top.mpr (actRow_real hr hw x).ne_top⟩).ne
  have hle : (e : EReal) ≤ mxRow row w := by unfold mxRow; rw [hε]; exact le_max_right _ _
  have hne_bot : mxRow row w ≠ ⊥ := fun h => by
    rw [h] at hle; exact EReal.coe_ne_bot e (le_bot_iff.mp hle)
  have hne_top : mxRow row w ≠ ⊤ := by
    unfold mxRow
    rcases max_choice ((Finset.univ : Finset (Fin 8192)).fold max ninf (actRow row w)) eps with h | h
    · rw [h]; exact hRtop
    · rw [h, hε]; exact EReal.coe_ne_top e
  obtain ⟨M, hM⟩ := isReal_of_ne hne_bot hne_top
  refine ⟨M, ?_, hM⟩
  rw [hM] at hle
  exact lt_of_lt_of_le he (EReal.coe_le_coe_iff.mp hle)

/-- The argument of the activation's rounding is a real. -/
theorem quant_arg_real (hr : ∀ k, IsReal (row k)) (hw : ∀ i, IsReal (w i)) (h : Fin 8192) :
    IsReal (Ideal.div (actRow row w h) (mxRow row w) * steps) := by
  obtain ⟨M, hM, e⟩ := mxRow_pos hr hw
  exact ((actRow_real hr hw h).div ⟨M, e⟩ (by rw [e]; exact_mod_cast hM.ne')).mul isReal_steps

end Cert.Mlp

end
-- ==== Proof.RefTern.lean ====
/-
  The reference program's ternary weights are the specification's. For a weight matrix c of reals the reference
  forms the scale s = max ((0 + Σ |c|) / 2^24, ε), the quotient q = c i / s, and then two straight-through forms:
  r = q + (round q − q) and r + (clip r − r), where clip r = min 1 (max (−1) r); the result is s times the last.
  The form a + (b − a) is b whenever a is a real. The quotient q is a real (s is a positive real), so r = round q;
  round q is a real again, so the second form is clip (round q). Hence entry i is s · clip (round (c i / s)).
-/
import proofs.«160328_j61220463837807_1_alg».proof.Proof.Finite
import proofs.«160328_j61220463837807_1_alg».proof.Proof.Gen.ReferenceIdeal.Read

noncomputable section

open scoped BigOperators

namespace Cert.RefTern

open Cert.Mlp Idealize.ShloMosaic
open Cert.ReferenceIdeal.Read

/-- The two nested straight-through forms at a real q: q + (round q − q) is round q, a real, and so
    r + (clip r − r) at r = round q is clip (round q). -/
theorem ste_clip {q : EReal} (hq : IsReal q) :
    (q + (rne q - q)) + (min hi (max lo (q + (rne q - q))) - (q + (rne q - q))) = min hi (max lo (rne q)) := by
  rw [straight_through hq, straight_through hq.rne]

/-- The first weight's scale in the reference, at the one index of the rank-0 shape: the initial value 0 plus the sum
    of max x (−x) over every entry, over 2^24, floored at ε. -/
theorem scale1 (x1 : SW.Idx → EReal) (j : Cert.ReferenceIdeal.S_.Idx) : val_main_v3 (F := Ideal) x1 j = scale x1 := by
  rw [val_main_v3_apply, val_main_v2_apply, val_main_v1_apply]
  rfl

/-- The second weight's scale in the reference: the same operations on the other argument. -/
theorem scale2 (x2 : SW.Idx → EReal) (j : Cert.ReferenceIdeal.S_.Idx) : val_main_v35 (F := Ideal) x2 j = scale x2 := by
  rw [val_main_v35_apply, val_main_v34_apply, val_main_v33_apply]
  rfl

/-- The reference's first ternary weight matrix is the specification's, for a matrix of reals. -/
theorem w1_eq (x1 : SW.Idx → EReal) (h1 : ∀ j, IsReal (x1 j)) : val_main_v13 (F := Ideal) x1 = tern x1 := by
  funext i
  rw [val_main_v13_apply, val_main_v12_apply, val_main_v11_apply, val_main_v10_apply, val_main_v9_apply,
    val_main_call1_v2_apply, val_main_call1_v4_apply, val_main_call1_v3_apply, val_main_cst_3_apply,
    val_main_call1_v1_apply, val_main_call1_v0_apply, val_main_cst_2_apply,
    val_main_v8_apply, val_main_v7_apply, val_main_v6_apply, val_main_v5_apply, val_main_v4_apply]
  simp only [scale1, Ideal.addf_def, Ideal.subf_def, Ideal.mulf_def, Ideal.hostDivf_def, Ideal.maximumf_def,
    Ideal.minimumf_def, Ideal.hostUnary_roundeven_def, Ideal.ofBits_def]
  exact congrArg (scale x1 * ·) (ste_clip (quot_real h1 i))

/-- The reference's second ternary weight matrix is the specification's, for a matrix of reals. -/
theorem w2_eq (x2 : SW.Idx → EReal) (h2 : ∀ j, IsReal (x2 j)) : val_main_v45 (F := Ideal) x2 = tern x2 := by
  funext i
  rw [val_main_v45_apply, val_main_v44_apply, val_main_v43_apply, val_main_v42_apply, val_main_v41_apply,
    val_main_call5_v2_apply, val_main_call5_v4_apply, val_main_call5_v3_apply, val_main_cst_12_apply,
    val_main_call5_v1_apply, val_main_call5_v0_apply, val_main_cst_11_apply,
    val_main_v40_apply, val_main_v39_apply, val_main_v38_apply, val_main_v37_apply, val_main_v36_apply]
  simp only [scale2, Ideal.addf_def, Ideal.subf_def, Ideal.mulf_def, Ideal.hostDivf_def, Ideal.maximumf_def,
    Ideal.minimumf_def, Ideal.hostUnary_roundeven_def, Ideal.ofBits_def]
  exact congrArg (scale x2 * ·) (ste_clip (quot_real h2 i))

end Cert.RefTern

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.RefRows.lean ====
/-
  The rest of the reference program, one output entry at a time. With both weight matrices already in ternary form,
  entry (b, s, d) of the reference's result is computed from row (b, s) of the input alone: the row times the first
  ternary matrix (a sum over the row's 2048 entries), its positive part squared, the largest of the 8192 squares floored
  at ε, each square over that maximum times 255, rounded through the straight-through form a + (round a − a), divided
  by 255 and scaled back by the maximum; and the resulting hidden row times row d of the second ternary matrix. For
  finite inputs the argument of the rounding is a real, so the straight-through form is the rounding itself, and each
  stage is the specification's stage of the same name.
-/
import proofs.«160328_j61220463837807_1_alg».proof.Proof.RefTern
import proofs.«160328_j61220463837807_1_alg».proof.Proof.LibRowMax

noncomputable section

open scoped BigOperators

namespace Cert.RefRows

open Cert.Mlp Idealize.ShloMosaic Idealize.ShloMosaic.ValueIdx
open Cert.ReferenceIdeal Cert.ReferenceIdeal.Read

variable (x0 : SX.Idx → EReal) (x1 : SW.Idx → EReal)

/-- The first product at (b, s, h): the sum over k of the input at (b, s, k) times the ternary weight at (k, h). -/
theorem pre_eq (h1 : ∀ j, IsReal (x1 j)) (b : Fin 4) (s : Fin 2048) (h : Fin 8192) :
    val_main_v14 (F := Ideal) x0 x1 (ix3 b s h) = preRow (fun k => x0 (ix3 b s k)) (tern x1) h := by
  rw [val_main_v14_apply, Cert.RefTern.w1_eq x1 h1]
  unfold preRow
  refine Finset.sum_congr rfl fun k _ => ?_
  have el : lidx_main_v14 (ix3 b s h) k = ix3 b s k := funext fun a => Fin.ext (by
    match a with
    | ⟨0, _⟩ => rfl
    | ⟨1, _⟩ => rfl
    | ⟨2, _⟩ => rfl)
  have er : ridx_main_v14 (ix3 b s h) k = ix2 k h := funext fun a => Fin.ext (by
    match a with
    | ⟨0, _⟩ => rfl
    | ⟨1, _⟩ => rfl)
  rw [el, er]

/-- The activation at (b, s, h): the positive part of the first product, squared. -/
theorem act_eq (h1 : ∀ j, IsReal (x1 j)) (b : Fin 4) (s : Fin 2048) (h : Fin 8192) :
    val_main_v16 (F := Ideal) x0 x1 (ix3 b s h) = actRow (fun k => x0 (ix3 b s k)) (tern x1) h := by
  rw [val_main_v16_apply, val_main_v15_apply, val_main_call2_v0_apply, val_main_call2_cst_apply, pre_eq x0 x1 h1 b s h]
  rfl

/-- The shape fact that names the index inserted on the reduced axis. -/
theorem reduces_act : S4x2048x8192.Reduces [2] S4x2048 := by decide

/-- The largest activation of row (b, s): the fold of max, from −∞, over the row's 8192 activations. -/
theorem rowmax_eq (h1 : ∀ j, IsReal (x1 j)) (b : Fin 4) (s : Fin 2048) :
    val_main_v17 (F := Ideal) x0 x1 (ix2 b s)
      = (Finset.univ : Finset (Fin 8192)).fold max ninf (actRow (fun k => x0 (ix3 b s k)) (tern x1)) := by
  unfold val_main_v17
  refine (Cert.LibRowMax.hostReduce_maximumf_single _ _ _ reduces_act _ _).trans ?_
  refine congrArg (fun f => (Finset.univ : Finset (Fin 8192)).fold max ninf f) (funext fun k => ?_)
  have e : reduces_act.lift (ix2 b s) k = ix3 b s k := funext fun a => Fin.ext (by
    match a with
    | ⟨0, _⟩ => rfl
    | ⟨1, _⟩ => rfl
    | ⟨2, _⟩ => rfl)
  rw [e]
  exact act_eq x0 x1 h1 b s k

/-- The row's scale at (b, s): its largest activation floored at ε. -/
theorem mx_eq (h1 : ∀ j, IsReal (x1 j)) (b : Fin 4) (s : Fin 2048) (z : Fin 1) :
    val_main_v20 (F := Ideal) x0 x1 (ix3 b s z) = mxRow (fun k => x0 (ix3 b s k)) (tern x1) := by
  rw [val_main_v20_apply, val_main_v18_apply, val_main_v19_apply, val_main_cst_5_apply]
  have e : idx_main_v18 (ix3 b s z) = ix2 b s := funext fun a => Fin.ext (by
    match a with
    | ⟨0, _⟩ => rfl
    | ⟨1, _⟩ => rfl)
  rw [e, rowmax_eq x0 x1 h1 b s]
  rfl

/-- The quantized activation at (b, s, h): the activation over the row's scale times 255, rounded (the straight-through
    form at a real argument), over 255, times the row's scale. -/
theorem hid_eq (h0 : ∀ i, IsReal (x0 i)) (h1 : ∀ j, IsReal (x1 j)) (b : Fin 4) (s : Fin 2048) (h : Fin 8192) :
    val_main_v31 (F := Ideal) x0 x1 (ix3 b s h) = hidRow (fun k => x0 (ix3 b s k)) (tern x1) h := by
  have e21 : idx_main_v21 (ix3 b s h) = ix3 b s (0 : Fin 1) := funext fun a => Fin.ext (by
    match a with
    | ⟨0, _⟩ => rfl
    | ⟨1, _⟩ => rfl
    | ⟨2, _⟩ => rfl)
  have e30 : idx_main_v30 (ix3 b s h) = ix3 b s (0 : Fin 1) := funext fun a => Fin.ext (by
    match a with
    | ⟨0, _⟩ => rfl
    | ⟨1, _⟩ => rfl
    | ⟨2, _⟩ => rfl)
  rw [val_main_v31_apply, val_main_v30_apply, val_main_v29_apply, val_main_v28_apply, val_main_cst_7_apply,
    val_main_v27_apply, val_main_v26_apply, val_main_v25_apply, val_main_v24_apply, val_main_v23_apply,
    val_main_cst_6_apply, val_main_v22_apply, val_main_v21_apply, e21, e30, mx_eq x0 x1 h1 b s 0,
    act_eq x0 x1 h1 b s h]
  simp only [Ideal.addf_def, Ideal.subf_def, Ideal.mulf_def, Ideal.hostDivf_def, Ideal.hostUnary_roundeven_def,
    Ideal.ofBits_def]
  rw [straight_through (quant_arg_real (fun k => h0 (ix3 b s k)) (tern_real h1) h)]
  rfl

/-- THE REFERENCE, ENTRY BY ENTRY: for finite inputs the reference's result is the specification's. -/
theorem result_eq (x0 : SX.Idx → EReal) (x1 x2 : SW.Idx → EReal) (h0 : ∀ i, IsReal (x0 i)) (h1 : ∀ j, IsReal (x1 j))
    (h2 : ∀ j, IsReal (x2 j)) : val_main_v46 (F := Ideal) x0 x1 x2 = result x0 x1 x2 := by
  funext i
  obtain ⟨b, s, d, rfl⟩ : ∃ b s d, i = ix3 b s d := ⟨i 0, i 1, i 2, eq_ix3 i⟩
  rw [val_main_v46_apply, Cert.RefTern.w2_eq x2 h2]
  show _ = outRow (hidRow (fun k => x0 (ix3 b s k)) (tern x1)) (tern x2) d
  unfold outRow
  refine Finset.sum_congr rfl fun k _ => ?_
  have el : lidx_main_v46 (ix3 b s d) k = ix3 b s k := funext fun a => Fin.ext (by
    match a with
    | ⟨0, _⟩ => rfl
    | ⟨1, _⟩ => rfl
    | ⟨2, _⟩ => rfl)
  have er : ridx_main_v46 (ix3 b s d) k = ix2 d k := funext fun a => Fin.ext (by
    match a with
    | ⟨0, _⟩ => rfl
    | ⟨1, _⟩ => rfl)
  rw [el, er, hid_eq x0 x1 h0 h1 b s k]

end Cert.RefRows

end
-- ==== Proof.RunValue.lean ====
/-
  The kernel program's run, with its result read. From any launch memory with zero counters, every weakly fair
  execution of the program on the TensorCores terminates, nothing faulting; and in every final state the result buffer
  holds what the contents at the last segment boundary name for it — the fold of the program's segments from the launch
  memory, read at the result's reference — while the three argument buffers hold what they held at launch.
-/
import proofs.«160328_j61220463837807_1_alg».proof.Proof.Gen.KernelIdeal.Frame
import proofs.«160328_j61220463837807_1_alg».proof.Proof.Gen.KernelIdeal.Launch
import proofs.«160328_j61220463837807_1_alg».proof.Proof.Gen.KernelIdeal.Skeleton
import proofs.«160328_j61220463837807_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULT: at the compiled mesh, from any memory with zero counters, every weakly fair execution of
    the program on the TensorCores terminates, nothing faulting, and every final state has the result buffer at the
    last boundary's contents and the three argument arrays as launched. The thread state carried through the segments is
    "every unscoped buffer at the boundary's contents"; at the end it is read against the final state, the result
    buffer being one of the unscoped buffers, and each argument's contents walk back through the fold to the launch. -/
theorem run_result : θ_run Cert.KernelIdeal.defs (onTc (τ := τ) (Cert.KernelIdeal.main (F := F))) ⟨m, fun _ => 0, ρ⟩ (fun r => ∀ c : Dev nD,
      r.2.mem ((c.tc : Thread nD τ).loc main_v26) = Cert.KernelIdeal.Gen.W12 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v26 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c)⟩)

end Cert.KernelRun

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.Pay.lean ====
/-
  What the two kernel bodies store, read at an entry on the extended reals.

  The first body multiplies its block of 64 input rows into the whole first weight matrix, takes the positive part,
  squares, takes each row's maximum floored at `ε`, and stores `round (a / M · 255) / 255 · M`: entry `(p, h)` of the
  stored block is `hidRow` of row `p` of the input block. The second body multiplies its block of 128 hidden rows
  into the transpose of the second weight matrix: entry `(p, d)` is `outRow` of row `p` of the hidden block.
-/
import proofs.«160328_j61220463837807_1_alg».proof.Proof.Gen.KernelIdeal.Skeleton
import proofs.«160328_j61220463837807_1_alg».proof.Proof.Spec
import proofs.«160328_j61220463837807_1_alg».proof.Proof.LibRowMax
import proofs.«160328_j61220463837807_1_alg».proof.Proof.LibKeepdims
import proofs.«160328_j61220463837807_1_alg».proof.Proof.LibPlainMatmul
import proofs.«160328_j61220463837807_1_alg».proof.Proof.LibTransposedMatmul
import Idealize.ShloMosaic.Lib.Pipeline.Value

noncomputable section

open scoped BigOperators

namespace Cert.KernelPay

open Cert.KernelIdeal Cert.KernelIdeal.Gen Cert.Mlp Idealize.ShloMosaic Idealize.ShloMosaic.ValueIdx

/-- The first body's product, at entry `(p, d)`: row `p` of the block against column `d` of the weights. -/
theorem pre_apply (x0 : FVec Ideal S64x2048 .bf16) (x1 : FVec Ideal S2048x8192 .bf16) (p : Fin 64) (d : Fin 8192) :
    matmul dot_S64x2048_S2048x8192_S64x8192_1_0_0_1_n_n none
        (shapeCast S64x2048 x0 shapeCasts_S64x2048_S64x2048 : FVec Ideal S64x2048 .bf16)
        (shapeCast S2048x8192 x1 shapeCasts_S2048x8192_S2048x8192 : FVec Ideal S2048x8192 .bf16)
        (constant S64x8192 .f32 0x00000000#32) (ix2 p d)
      = preRow (fun k => x0 (ix2 p k)) x1 d := by
  rw [shapeCast_self, shapeCast_self]
  exact Cert.LibPlainMatmul.matmul_zero_apply (φ₁ := .bf16) (φ₂ := .bf16) none x0 x1 p d

/-- The squared positive part of the first body's product. -/
def act (x0 : FVec Ideal S64x2048 .bf16) (x1 : FVec Ideal S2048x8192 .bf16) : FVec Ideal S64x8192 .f32 :=
  mulf
    (maximumf (matmul dot_S64x2048_S2048x8192_S64x8192_1_0_0_1_n_n none
        (shapeCast S64x2048 x0 shapeCasts_S64x2048_S64x2048 : FVec Ideal S64x2048 .bf16)
        (shapeCast S2048x8192 x1 shapeCasts_S2048x8192_S2048x8192 : FVec Ideal S2048x8192 .bf16)
        (constant S64x8192 .f32 0x00000000#32)) (broadcast S64x8192 (Scalar.ofBits .f32 0x00000000#32)))
    (maximumf (matmul dot_S64x2048_S2048x8192_S64x8192_1_0_0_1_n_n none
        (shapeCast S64x2048 x0 shapeCasts_S64x2048_S64x2048 : FVec Ideal S64x2048 .bf16)
        (shapeCast S2048x8192 x1 shapeCasts_S2048x8192_S2048x8192 : FVec Ideal S2048x8192 .bf16)
        (constant S64x8192 .f32 0x00000000#32)) (broadcast S64x8192 (Scalar.ofBits .f32 0x00000000#32)))

theorem act_apply (x0 : FVec Ideal S64x2048 .bf16) (x1 : FVec Ideal S2048x8192 .bf16) (p : Fin 64) (d : Fin 8192) :
    act x0 x1 (ix2 p d) = actRow (fun k => x0 (ix2 p k)) x1 d := by
  unfold act actRow
  rw [← pre_apply x0 x1 p d]
  rfl

/-- The column of the rows' maxima, each floored at `ε`. -/
def mxcol (x0 : FVec Ideal S64x2048 .bf16) (x1 : FVec Ideal S2048x8192 .bf16) : FVec Ideal S64x1 .f32 :=
  maximumf
    (shapeCast S64x1 (multiReduction .maximumf [1] S64 (act x0 x1) 0xFF800000#32 reduces_S64x8192_S64 (.inl rfl) rfl)
      shapeCasts_S64_S64x1)
    (broadcast S64x1 (Scalar.ofBits .f32 0x3727C5AC#32))

theorem mxcol_apply (x0 : FVec Ideal S64x2048 .bf16) (x1 : FVec Ideal S2048x8192 .bf16) (p : Fin 64) :
    mxcol x0 x1 (ix2 p (0 : Fin 1)) = mxRow (fun k => x0 (ix2 p k)) x1 := by
  unfold mxcol mxRow
  refine congrArg (fun a => max a eps) ?_
  refine (Cert.LibKeepdims.shapeCast_a_a1_apply _ shapeCasts_S64_S64x1 p (0 : Fin 1)).trans ?_
  refine (Cert.LibRowMax.multiReduction_maximumf_rows (act x0 x1) 0xFF800000#32 reduces_S64x8192_S64 (.inl rfl) rfl p).trans ?_
  exact congrArg (fun f => (Finset.univ : Finset (Fin 8192)).fold max ninf f) (funext fun d => act_apply x0 x1 p d)

/-- Rounding a vector, read at an index. -/
theorem roundeven_apply {s : Shape} {φ : FTy} (a : FVec Ideal s φ) (i : s.Idx) : roundeven a i = rne (a i) := rfl

/-- A scalar literal is the value of its pattern. -/
theorem scalar_ofBits (b : BitVec 32) : (Scalar.ofBits .f32 b : Ideal .f32) = Ideal.ofBits .f32 b := rfl

/-- The first body's stored value is this expression of the two named values. -/
theorem k0_pay1_eq (x0 : FVec Ideal S64x2048 .bf16) (x1 : FVec Ideal S2048x8192 .bf16) :
    k0_pay1 (F := Ideal) x0 x1
      = truncf .bf16
          (mulf
            (divf
              (roundeven (mulf (divf (act x0 x1) (broadcastTo S64x8192 (mxcol x0 x1) broadcasts_S64x1_S64x8192))
                (broadcast S64x8192 (Scalar.ofBits .f32 0x437F0000#32))))
              (broadcast S64x8192 (Scalar.ofBits .f32 0x437F0000#32)))
            (broadcastTo S64x8192 (mxcol x0 x1) broadcasts_S64x1_S64x8192))
          bitsLt_bf16_f32 := rfl

/-- The first body's stored block at entry `(p, h)`. -/
theorem pay0_apply (x0 : FVec Ideal S64x2048 .bf16) (x1 : FVec Ideal S2048x8192 .bf16) (p : Fin 64) (h : Fin 8192) :
    k0_pay1 (F := Ideal) x0 x1 (ix2 p h) = hidRow (fun k => x0 (ix2 p k)) x1 h := by
  rw [k0_pay1_eq]
  have hb : broadcastTo S64x8192 (mxcol x0 x1) broadcasts_S64x1_S64x8192 (ix2 p h) = mxRow (fun k => x0 (ix2 p k)) x1 :=
    (Cert.LibKeepdims.broadcastTo_a1_ab_apply (mxcol x0 x1) broadcasts_S64x1_S64x8192 p h).trans (mxcol_apply x0 x1 p)
  simp only [truncf_apply, mulf_apply, divf_apply, roundeven_apply, broadcast_apply, hb, act_apply x0 x1 p h,
    scalar_ofBits]
  rfl

/-- The second body's stored block at entry `(p, d)`: row `p` of the hidden block against ROW `d` of the weights. -/
theorem pay1_apply (x0 : FVec Ideal S128x8192 .bf16) (x1 : FVec Ideal S2048x8192 .bf16) (p : Fin 128) (d : Fin 2048) :
    k1_pay1 (F := Ideal) x0 x1 (ix2 p d) = outRow (fun k => x0 (ix2 p k)) x1 d := by
  show matmul dot_S128x8192_S2048x8192_S128x2048_1_1_0_0_n_n none
      (shapeCast S128x8192 x0 shapeCasts_S128x8192_S128x8192 : FVec Ideal S128x8192 .bf16)
      (shapeCast S2048x8192 x1 shapeCasts_S2048x8192_S2048x8192 : FVec Ideal S2048x8192 .bf16)
      (constant S128x2048 .f32 0x00000000#32) (ix2 p d) = _
  rw [shapeCast_self, shapeCast_self]
  exact Cert.LibTransposedMatmul.matmul_zero_apply (φ₁ := .bf16) (φ₂ := .bf16) none x0 x1 p d

end Cert.KernelPay

end
-- ==== Proof.Blocks.lean ====
/-
  From blocks to arrays. Each region's output array, after the region, is ONE function of the arrays the region
  found: the first region's block at grid point `t` is rows `64 t … 64 t + 63` of the hidden array, each row
  `hidRow` of the same row of the input array against the whole first weight array; the second region's block at
  point `t` is rows `128 t … 128 t + 127` of the result, each `outRow` of the same row of the hidden array against the
  whole second weight array. The blocks of either region tile its output array (row `r` lies in the block of point
  `r / 64`, respectively `r / 128`), so the array ends holding the function.
-/
import proofs.«160328_j61220463837807_1_alg».proof.Proof.Gen.KernelIdeal.Frame
import proofs.«160328_j61220463837807_1_alg».proof.Proof.Pay
import Idealize.ShloMosaic.Lib.Pipeline.Value
import Idealize.ShloMosaic.Lib.Tactic

noncomputable section

namespace Cert.KernelBlocks

open Cert.KernelIdeal Cert.KernelIdeal.Gen Cert.Mlp Cert.KernelPay
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden array from the input array and the first weight array, row by row. -/
def hidArr (X : S8192x2048.Idx → EReal) (W : S2048x8192.Idx → EReal) : S8192x8192.Idx → EReal :=
  fun j => hidRow (fun k => X (ix2 (j 0) k)) W (j 1)

/-- The result array from the hidden array and the second weight array, row by row. -/
def outArr (H : S8192x8192.Idx → EReal) (W : S2048x8192.Idx → EReal) : S8192x2048.Idx → EReal :=
  fun j => outRow (fun k => H (ix2 (j 0) k)) W (j 1)

theorem hidRow_congr {r r' : Fin 2048 → EReal} {w w' : SW.Idx → EReal} {h h' : Fin 8192}
    (hr : r = r') (hw : w = w') (hh : h = h') : hidRow r w h = hidRow r' w' h' := by subst hr hw hh; rfl

theorem outRow_congr {r r' : Fin 8192 → EReal} {w w' : SW.Idx → EReal} {d d' : Fin 2048}
    (hr : r = r') (hw : w = w') (hd : d = d') : outRow r w d = outRow r' w' d' := by subst hr hw hd; rfl

/-! ## The first region -/

/-- Its index maps: the row blocks follow the grid point, the weight array is one block. -/
theorem idx0 : ∀ t : Fin cfg0.N, win0_0.index t 0 = t.val ∧ win0_0.index t 1 = 0 ∧ win0_1.index t 0 = 0 ∧ win0_1.index t 1 = 0
    ∧ win0_2.index t 0 = t.val ∧ win0_2.index t 1 = 0
    ∧ win0_2.xsize (grid0.coords t) 0 = 64 ∧ win0_2.xsize (grid0.coords t) 1 = 8192 :=
  (by decide +kernel : ∀ t : Fin grid0.N, _)

/-- What the first body leaves, at an entry of the block. -/
theorem out0_apply (x0 : Vec Ideal S64x2048 .bf16) (x1 : Vec Ideal S2048x8192 .bf16) (y : S64x8192.Idx) :
    out0_2 (F := Ideal) x0 x1 y = hidRow (fun k => x0 (ix2 (y 0) k)) x1 (y 1) := by
  unfold out0_2
  rw [View.canon_unit_zero hz]
  simp only [View.ld_unit_zero (S := S64x2048) hz, View.ld_unit_zero (S := S2048x8192) hz]
  exact (congrArg (k0_pay1 (F := Ideal) x0 x1) (eq_ix2 y)).trans (pay0_apply x0 x1 (y 0) (y 1))

/-- The input block at point `t` is rows `64 t …` of the input array. -/
theorem iblk0_0_apply (c : Dev nD) (t : Fin cfg0.N) (p : Fin 64) (k : Fin 2048) (r : Fin 8192)
    (hr : r.val = t.val * 64 + p.val) :
    (iblk0 V c 0 t : Vec Ideal S64x2048 .bf16) (ix2 p k) = (V c main_v23 : S8192x2048.Idx → EReal) (ix2 r k) := by
  obtain ⟨h0, h1, -⟩ := idx0 t
  unfold iblk0
  rw [View.read_apply]
  show V c main_v23 _ = V c main_v23 _
  congr 1
  funext a
  apply Fin.ext
  match a with
  | ⟨0, _⟩ => show win0_0.index t 0 * 64 + 1 * p.val = r.val; rw [h0, hr]; omega
  | ⟨1, _⟩ => show win0_0.index t 1 * 2048 + 1 * k.val = k.val; rw [h1]; omega

/-- The weight block at every point is the whole first weight array. -/
theorem iblk0_1_apply (c : Dev nD) (t : Fin cfg0.N) (i : S2048x8192.Idx) :
    (iblk0 V c 1 t : Vec Ideal S2048x8192 .bf16) i = (V c main_v10 : S2048x8192.Idx → EReal) i := by
  obtain ⟨-, -, h0, h1, -⟩ := idx0 t
  unfold iblk0
  rw [View.read_apply]
  show V c main_v10 _ = V c main_v10 _
  congr 1
  funext a
  apply Fin.ext
  match a with
  | ⟨0, _⟩ => show win0_1.index t 0 * 2048 + 1 * (i 0).val = (i 0).val; rw [h0]; omega
  | ⟨1, _⟩ => show win0_1.index t 1 * 8192 + 1 * (i 1).val = (i 1).val; rw [h1]; omega

/-- What point `t` writes back is block `t` of the hidden array. -/
theorem flushed0 (c : Dev nD) (t : Fin cfg0.N) (hf : (cfg0.win 2).flush t = true) :
    (dat0 V c).flushed 2 t = ((cfg0.win 2).blk t).view.read (Elt Ideal)
      (hidArr (V c main_v23) (V c main_v10) : Buf (Elt Ideal) ((c : Thread nD τ).loc main_v24)) := by
  obtain ⟨-, -, -, -, h20, h21, -⟩ := idx0 t
  show (cfg0.win 2).cut (grid0.coords t) ((dat0 V c).after 2 t) = _
  rw [after0_2]
  funext y
  rw [View.read_apply]
  refine ((out0_apply (iblk0 V c 0 t) (iblk0 V c 1 t) y).trans ?_).trans (cast_eq _ _).symm
  show hidRow _ _ _ = hidRow _ _ _
  refine hidRow_congr (funext fun k => ?_) (funext fun i => ?_) (Fin.ext ?_)
  · refine iblk0_0_apply V c t (y 0) k _ ?_
    show win0_2.index t 0 * 64 + 1 * (y 0).val = t.val * 64 + (y 0).val
    rw [h20]; omega
  · exact iblk0_1_apply V c t i
  · show (y 1).val = win0_2.index t 1 * 8192 + 1 * (y 1).val
    rw [h21]; omega

/-- The hidden array after the first region. -/
theorem final0 (c : Dev nD) :
    (dat0 V c).arrAt 2 cfg0.N = (hidArr (V c main_v23) (V c main_v10) : Buf (Elt Ideal) ((c : Thread nD τ).loc main_v24)) :=
  (dat0 V c).arrAt_eq_of_cover 2 _ (flushed0 V c) fun i => by
    have hN : cfg0.N = 128 := N_0
    have hi0 : (i 0 : Nat) < 8192 := (i 0).isLt
    have hi1 : (i 1 : Nat) < 8192 := (i 1).isLt
    have ht : (i 0 : Nat) / 64 < cfg0.N := by rw [hN]; omega
    refine ⟨⟨(i 0 : Nat) / 64, ht⟩, flush0_2 _, ?_⟩
    obtain ⟨-, -, -, -, h20, h21, hx0, hx1⟩ := idx0 ⟨(i 0 : Nat) / 64, ht⟩
    show i ∈ ((View.whole main_v24).slice (win0_2.rect ⟨(i 0 : Nat) / 64, ht⟩)).set
    rw [View.set_slice_whole, Rect.mem_set_unit]
    intro a
    match a with
    | ⟨0, _⟩ =>
      show win0_2.index ⟨(i 0 : Nat) / 64, ht⟩ 0 * 64 ≤ (i 0 : Nat)
        ∧ (i 0 : Nat) < win0_2.index ⟨(i 0 : Nat) / 64, ht⟩ 0 * 64 + win0_2.xsize (grid0.coords ⟨(i 0 : Nat) / 64, ht⟩) 0
      rw [h20, hx0]; show (i 0 : Nat) / 64 * 64 ≤ (i 0 : Nat) ∧ (i 0 : Nat) < (i 0 : Nat) / 64 * 64 + 64; omega
    | ⟨1, _⟩ =>
      show win0_2.index ⟨(i 0 : Nat) / 64, ht⟩ 1 * 8192 ≤ (i 1 : Nat)
        ∧ (i 1 : Nat) < win0_2.index ⟨(i 0 : Nat) / 64, ht⟩ 1 * 8192 + win0_2.xsize (grid0.coords ⟨(i 0 : Nat) / 64, ht⟩) 1
      rw [h21, hx1]; omega

/-! ## The second region -/

/-- Its index maps: the row blocks follow the grid point, the weight array is one block. -/
theorem idx1 : ∀ t : Fin cfg1.N, win1_0.index t 0 = t.val ∧ win1_0.index t 1 = 0 ∧ win1_1.index t 0 = 0 ∧ win1_1.index t 1 = 0
    ∧ win1_2.index t 0 = t.val ∧ win1_2.index t 1 = 0
    ∧ win1_2.xsize (grid1.coords t) 0 = 128 ∧ win1_2.xsize (grid1.coords t) 1 = 2048 :=
  (by decide +kernel : ∀ t : Fin grid1.N, _)

/-- What the second body leaves, at an entry of the block. -/
theorem out1_apply (x0 : Vec Ideal S128x8192 .bf16) (x1 : Vec Ideal S2048x8192 .bf16) (y : S128x2048.Idx) :
    out1_2 (F := Ideal) x0 x1 y = outRow (fun k => x0 (ix2 (y 0) k)) x1 (y 1) := by
  unfold out1_2
  rw [View.canon_unit_zero hz]
  simp only [View.ld_unit_zero (S := S128x8192) hz, View.ld_unit_zero (S := S2048x8192) hz]
  exact (congrArg (k1_pay1 (F := Ideal) x0 x1) (eq_ix2 y)).trans (pay1_apply x0 x1 (y 0) (y 1))

/-- The hidden block at point `t` is rows `128 t …` of the hidden array. -/
theorem iblk1_0_apply (c : Dev nD) (t : Fin cfg1.N) (p : Fin 128) (k : Fin 8192) (r : Fin 8192)
    (hr : r.val = t.val * 128 + p.val) :
    (iblk1 V c 0 t : Vec Ideal S128x8192 .bf16) (ix2 p k) = (V c main_v24 : S8192x8192.Idx → EReal) (ix2 r k) := by
  obtain ⟨h0, h1, -⟩ := idx1 t
  unfold iblk1
  rw [View.read_apply]
  show V c main_v24 _ = V c main_v24 _
  congr 1
  funext a
  apply Fin.ext
  match a with
  | ⟨0, _⟩ => show win1_0.index t 0 * 128 + 1 * p.val = r.val; rw [h0, hr]; omega
  | ⟨1, _⟩ => show win1_0.index t 1 * 8192 + 1 * k.val = k.val; rw [h1]; omega

/-- The weight block at every point is the whole second weight array. -/
theorem iblk1_1_apply (c : Dev nD) (t : Fin cfg1.N) (i : S2048x8192.Idx) :
    (iblk1 V c 1 t : Vec Ideal S2048x8192 .bf16) i = (V c main_v21 : S2048x8192.Idx → EReal) i := by
  obtain ⟨-, -, h0, h1, -⟩ := idx1 t
  unfold iblk1
  rw [View.read_apply]
  show V c main_v21 _ = V c main_v21 _
  congr 1
  funext a
  apply Fin.ext
  match a with
  | ⟨0, _⟩ => show win1_1.index t 0 * 2048 + 1 * (i 0).val = (i 0).val; rw [h0]; omega
  | ⟨1, _⟩ => show win1_1.index t 1 * 8192 + 1 * (i 1).val = (i 1).val; rw [h1]; omega

/-- What point `t` writes back is block `t` of the result array. -/
theorem flushed1 (c : Dev nD) (t : Fin cfg1.N) (hf : (cfg1.win 2).flush t = true) :
    (dat1 V c).flushed 2 t = ((cfg1.win 2).blk t).view.read (Elt Ideal)
      (outArr (V c main_v24) (V c main_v21) : Buf (Elt Ideal) ((c : Thread nD τ).loc main_v25)) := by
  obtain ⟨-, -, -, -, h20, h21, -⟩ := idx1 t
  show (cfg1.win 2).cut (grid1.coords t) ((dat1 V c).after 2 t) = _
  rw [after1_2]
  funext y
  rw [View.read_apply]
  refine ((out1_apply (iblk1 V c 0 t) (iblk1 V c 1 t) y).trans ?_).trans (cast_eq _ _).symm
  show outRow _ _ _ = outRow _ _ _
  refine outRow_congr (funext fun k => ?_) (funext fun i => ?_) (Fin.ext ?_)
  · refine iblk1_0_apply V c t (y 0) k _ ?_
    show win1_2.index t 0 * 128 + 1 * (y 0).val = t.val * 128 + (y 0).val
    rw [h20]; omega
  · exact iblk1_1_apply V c t i
  · show (y 1).val = win1_2.index t 1 * 2048 + 1 * (y 1).val
    rw [h21]; omega

/-- The result array after the second region. -/
theorem final1 (c : Dev nD) :
    (dat1 V c).arrAt 2 cfg1.N = (outArr (V c main_v24) (V c main_v21) : Buf (Elt Ideal) ((c : Thread nD τ).loc main_v25)) :=
  (dat1 V c).arrAt_eq_of_cover 2 _ (flushed1 V c) fun i => by
    have hN : cfg1.N = 64 := N_1
    have hi0 : (i 0 : Nat) < 8192 := (i 0).isLt
    have hi1 : (i 1 : Nat) < 2048 := (i 1).isLt
    have ht : (i 0 : Nat) / 128 < cfg1.N := by rw [hN]; omega
    refine ⟨⟨(i 0 : Nat) / 128, ht⟩, flush1_2 _, ?_⟩
    obtain ⟨-, -, -, -, h20, h21, hx0, hx1⟩ := idx1 ⟨(i 0 : Nat) / 128, ht⟩
    show i ∈ ((View.whole main_v25).slice (win1_2.rect ⟨(i 0 : Nat) / 128, ht⟩)).set
    rw [View.set_slice_whole, Rect.mem_set_unit]
    intro a
    match a with
    | ⟨0, _⟩ =>
      show win1_2.index ⟨(i 0 : Nat) / 128, ht⟩ 0 * 128 ≤ (i 0 : Nat)
        ∧ (i 0 : Nat) < win1_2.index ⟨(i 0 : Nat) / 128, ht⟩ 0 * 128 + win1_2.xsize (grid1.coords ⟨(i 0 : Nat) / 128, ht⟩) 0
      rw [h20, hx0]; show (i 0 : Nat) / 128 * 128 ≤ (i 0 : Nat) ∧ (i 0 : Nat) < (i 0 : Nat) / 128 * 128 + 128; omega
    | ⟨1, _⟩ =>
      show win1_2.index ⟨(i 0 : Nat) / 128, ht⟩ 1 * 2048 ≤ (i 1 : Nat)
        ∧ (i 1 : Nat) < win1_2.index ⟨(i 0 : Nat) / 128, ht⟩ 1 * 2048 + win1_2.xsize (grid1.coords ⟨(i 0 : Nat) / 128, ht⟩) 1
      rw [h21, hx1]; omega

end Cert.KernelBlocks

end
-- ==== Proof.HostSide.lean ====
/-
  What the kernel program's host operations leave when its first region is entered, as functions of the arguments, on
  the extended reals. From a weight matrix c the host forms the scale s = max ((0 + Σ |c|) / 2^24, ε), the quotient
  c i / s, its rounding to nearest with ties to even, the clip min 1 (max (−1) ·), and s times the result, narrowed to
  the 16-bit format — which changes nothing on the extended reals: the specification's ternary form of c. It does so for
  both weight matrices; and it reshapes the input [4, 2048, 2048] to [8192, 2048], rows (b, s) in order b · 2048 + s.
-/
import proofs.«160328_j61220463837807_1_alg».proof.Proof.Gen.KernelIdeal.Frame
import proofs.«160328_j61220463837807_1_alg».proof.Proof.Spec
import Idealize.ShloMosaic.Lib.StableHlo.Run
import Idealize.ShloMosaic.Lib.Pipeline.Value
import Idealize.ShloMosaic.PureOps.Ideal.Laws

set_option maxRecDepth 16384

noncomputable section

open scoped BigOperators

namespace Cert.KernelHost

open Cert.KernelIdeal Cert.KernelIdeal.Gen Cert.Mlp
open Idealize.ShloMosaic Idealize.ShloMosaic.TcCoe Idealize.ShloMosaic.ValueIdx Idealize.ShloMosaic.StableHlo

/-- The scale of a weight matrix as the host operations compute it: the sum of the absolute values from 0, over 2^24,
    floored at ε. -/
def hostScale (c1 : FVec Ideal S2048x8192 .f32) : FVec Ideal S_ .f32 :=
  maximumf
    (Host.divf (Host.reduceAdd (Host.absf c1) (constant S_ .f32 0x00000000#32) reducesTo_S2048x8192_S_d0_1 h_S_)
      (constant S_ .f32 0x4B800000#32))
    (constant S_ .f32 0x3727C5AC#32)

/-- The ternary form of a weight matrix as the host operations compute it: the scale times the clip to [−1, 1] of the
    rounded quotient by the scale, narrowed to the 16-bit format. -/
def hostTern (c1 : FVec Ideal S2048x8192 .f32) : FVec Ideal S2048x8192 .bf16 :=
  truncf .bf16
    (mulf (broadcastInDim S2048x8192 ![] bcast_S_S2048x8192 (hostScale c1))
      (minimumf (broadcastInDim S2048x8192 ![] bcast_S_S2048x8192 (id (constant S_ .f32 0x3F800000#32)))
        (maximumf (broadcastInDim S2048x8192 ![] bcast_S_S2048x8192 (id (constant S_ .f32 0xBF800000#32)))
          (Host.roundeven (Host.divf c1 (broadcastInDim S2048x8192 ![] bcast_S_S2048x8192 (hostScale c1)))))))
    bitsLt_bf16_f32

/-- The host's scale, at the one index of the rank-0 shape, is the specification's. -/
theorem hostScale_apply (c1 : SW.Idx → EReal) (j : S_.Idx) : hostScale c1 j = scale c1 := by
  have hsum : Host.reduceAdd (F := Ideal) (Host.absf c1) (constant S_ .f32 0x00000000#32) reducesTo_S2048x8192_S_d0_1 h_S_ j
      = (constant (F := Ideal) S_ .f32 0x00000000#32) (Shape.Idx.first h_S_) + ∑ i : S2048x8192.Idx, Host.absf (F := Ideal) c1 i := by
    simp only [Host.reduceAdd, Ideal.hostReduceAdd_def]
    exact Ideal.hostReduceAdd_total reducesTo_S2048x8192_S_d0_1 (fun b => b.elim0) _ _ j
  calc hostScale c1 j
      = max (Ideal.div (Host.reduceAdd (F := Ideal) (Host.absf c1) (constant S_ .f32 0x00000000#32) reducesTo_S2048x8192_S_d0_1 h_S_ j) cnt) eps := rfl
    _ = scale c1 := by rw [hsum]; rfl

/-- The host's ternary form is the specification's, entry by entry. -/
theorem hostTern_apply (c1 : SW.Idx → EReal) (i : S2048x8192.Idx) : hostTern c1 i = tern c1 i := by
  have hs : broadcastInDim S2048x8192 ![] bcast_S_S2048x8192 (hostScale c1) i = scale c1 :=
    (broadcastInDim_apply _ bcast_S_S2048x8192 (hostScale c1) i ix0 (fun a => a.elim0)).trans (hostScale_apply c1 ix0)
  have h1 : broadcastInDim S2048x8192 ![] bcast_S_S2048x8192 (id (constant (F := Ideal) S_ .f32 0x3F800000#32)) i = hi :=
    broadcastInDim_apply _ bcast_S_S2048x8192 _ i ix0 (fun a => a.elim0)
  have hm : broadcastInDim S2048x8192 ![] bcast_S_S2048x8192 (id (constant (F := Ideal) S_ .f32 0xBF800000#32)) i = lo :=
    broadcastInDim_apply _ bcast_S_S2048x8192 _ i ix0 (fun a => a.elim0)
  calc hostTern c1 i
      = broadcastInDim S2048x8192 ![] bcast_S_S2048x8192 (hostScale c1) i
          * min (broadcastInDim S2048x8192 ![] bcast_S_S2048x8192 (id (constant (F := Ideal) S_ .f32 0x3F800000#32)) i)
              (max (broadcastInDim S2048x8192 ![] bcast_S_S2048x8192 (id (constant (F := Ideal) S_ .f32 0xBF800000#32)) i)
                (rne (Ideal.div (c1 i) (broadcastInDim S2048x8192 ![] bcast_S_S2048x8192 (hostScale c1) i)))) := rfl
    _ = tern c1 i := by rw [hs, h1, hm]; rfl

variable (m : (ℓ : Loc nD τ sig) → Buf (Elt Ideal) ℓ) (ρ : Dev nD → PrngReg)

/-- When the first region is entered the first weight buffer holds the host's ternary form of the second argument. -/
theorem w1_host (c : Dev nD) :
    (V9 m ρ c main_v10 : S2048x8192.Idx → EReal) = hostTern (m ((c : Thread nD τ).loc main_arg1)) := by
  show W9 m ρ c (Proc.devRef .tc main_v10) = _
  dsimp only [W9, W8, W7, W6, W5, W4, W3, W2, W1, hostOps0, hostOps0_1, hostOps0_2, hostOps0_3, hostOps0_4, hostOps0_5,
    hostOps0_6, hostOps0_7, hostOps0_8]
  after_results
  rfl

/-- When the first region is entered the second weight buffer holds the host's ternary form of the third argument. -/
theorem w2_host (c : Dev nD) :
    (V9 m ρ c main_v21 : S2048x8192.Idx → EReal) = hostTern (m ((c : Thread nD τ).loc main_arg2)) := by
  show W9 m ρ c (Proc.devRef .tc main_v21) = _
  dsimp only [W9, W8, W7, W6, W5, W4, W3, W2, W1, hostOps0, hostOps0_1, hostOps0_2, hostOps0_3, hostOps0_4, hostOps0_5,
    hostOps0_6, hostOps0_7, hostOps0_8]
  after_results_simp
  rfl

/-- When the first region is entered the input buffer holds the first argument read in the shape [8192, 2048] (the same
    entries in row-major order), narrowed to the 16-bit format, which changes nothing on the extended reals. -/
theorem x_host (c : Dev nD) :
    (V9 m ρ c main_v23 : S8192x2048.Idx → EReal)
      = shapeCast S8192x2048 (m ((c : Thread nD τ).loc main_arg0) : S4x2048x2048.Idx → EReal) shapeCasts_S4x2048x2048_S8192x2048 := by
  show W9 m ρ c (Proc.devRef .tc main_v23) = _
  dsimp only [W9, W8, W7, W6, W5, W4, W3, W2, W1, hostOps0, hostOps0_1, hostOps0_2, hostOps0_3, hostOps0_4, hostOps0_5,
    hostOps0_6, hostOps0_7, hostOps0_8]
  after_results
  rfl

/-- THE FIRST WEIGHT AT ENTRY: the specification's ternary form of the second argument, entry by entry. -/
theorem w1_entry (c : Dev nD) (i : S2048x8192.Idx) :
    (V9 m ρ c main_v10 : S2048x8192.Idx → EReal) i = tern (m ((c : Thread nD τ).loc main_arg1)) i :=
  (congrFun (w1_host m ρ c) i).trans (hostTern_apply _ i)

/-- THE SECOND WEIGHT AT ENTRY: the specification's ternary form of the third argument, entry by entry. -/
theorem w2_entry (c : Dev nD) (i : S2048x8192.Idx) :
    (V9 m ρ c main_v21 : S2048x8192.Idx → EReal) i = tern (m ((c : Thread nD τ).loc main_arg2)) i :=
  (congrFun (w2_host m ρ c) i).trans (hostTern_apply _ i)

/-- THE INPUT AT ENTRY: row b · 2048 + s of the [8192, 2048] buffer is row (b, s) of the first argument — entry
    (b, s, k) of [4, 2048, 2048] and entry (b · 2048 + s, k) of [8192, 2048] have the same row-major position
    (b · 2048 + s) · 2048 + k. -/
theorem x_entry (c : Dev nD) (b : Fin 4) (s : Fin 2048) (k : Fin 2048) :
    (V9 m ρ c main_v23 : S8192x2048.Idx → EReal) (ix2 ⟨b.val * 2048 + s.val, by omega⟩ k)
      = (m ((c : Thread nD τ).loc main_arg0) : S4x2048x2048.Idx → EReal) (ix3 b s k) := by
  refine (congrFun (x_host m ρ c) _).trans ?_
  refine shapeCast_apply _ _ _ (ix3 b s k) ?_
  rw [Shape.rowMajor_val_three, Shape.rowMajor_val_two]
  rfl

end Cert.KernelHost

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.KernelValue.lean ====
/-
  The kernel program's result, entry by entry. The contents at the last segment boundary, read at the result buffer,
  are the reshape to `[4, 2048, 2048]` of the second region's output array; that array is `outRow` of the rows of the
  hidden array, which the first region left as `hidRow` of the rows of the reshaped input against the first ternary
  weight array; the second weight array crosses the first region untouched. Row `b · 2048 + s` of the reshaped input is
  row `(b, s)` of the input, so entry `(b, s, d)` of the result is the specification's.
-/
import proofs.«160328_j61220463837807_1_alg».proof.Proof.Blocks
import proofs.«160328_j61220463837807_1_alg».proof.Proof.HostSide
import proofs.«160328_j61220463837807_1_alg».proof.Proof.LibFlatten
import Idealize.ShloMosaic.Lib.StableHlo.Run

noncomputable section

namespace Cert.KernelValue

open Cert.KernelIdeal Cert.KernelIdeal.Gen Cert.Mlp Cert.KernelBlocks Cert.KernelHost
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- The hidden array as the second region finds it: what the first region's write-backs left. -/
theorem hid_entry (c : Dev nD) :
    (V10 m ρ c main_v24 : S8192x8192.Idx → EReal) = hidArr (V9 m ρ c main_v23) (V9 m ρ c main_v10) :=
  (W10_arr m ρ c 2).trans (final0 (V9 m ρ) c)

/-- The second weight array crosses the first region untouched. -/
theorem w2_kept (c : Dev nD) : (V10 m ρ c main_v21 : S2048x8192.Idx → EReal) = V9 m ρ c main_v21 :=
  W10_of_ne m ρ c main_v21 (by decide)

/-- The second region's output array at its exit. -/
theorem out_exit (c : Dev nD) :
    (W11 m ρ c (Proc.devRef .tc main_v25) : S8192x2048.Idx → EReal) = outArr (V10 m ρ c main_v24) (V10 m ρ c main_v21) :=
  (W11_arr m ρ c 2).trans (final1 (V10 m ρ) c)

/-- The result buffer at the last boundary: the reshape of the second region's output array. -/
theorem result_tail (c : Dev nD) :
    (W12 m ρ c (Proc.devRef .tc main_v26) : S4x2048x2048.Idx → EReal)
      = shapeCast S4x2048x2048 (W11 m ρ c (Proc.devRef .tc main_v25) : S8192x2048.Idx → EReal)
          shapeCasts_S8192x2048_S4x2048x2048 := by
  show StableHlo.after hostOps2 (W11 m ρ c) (Proc.devRef .tc main_v26) = _
  dsimp only [hostOps2]
  after_results
  rfl

/-- The result buffer at the last boundary, entry by entry, is the specification of the launch arguments. -/
theorem result_entry (c : Dev nD) :
    (W12 m ρ c (Proc.devRef .tc main_v26) : S4x2048x2048.Idx → EReal)
      = result (m ((c : Thread nD τ).loc main_arg0)) (m ((c : Thread nD τ).loc main_arg1)) (m ((c : Thread nD τ).loc main_arg2)) := by
  funext i
  obtain ⟨b, s, d, rfl⟩ : ∃ (b : Fin 4) (s : Fin 2048) (d : Fin 2048), i = ix3 b s d := ⟨i 0, i 1, i 2, eq_ix3 i⟩
  have hb := b.isLt
  have hs := s.isLt
  rw [result_tail]
  refine (Cert.LibFlatten.shapeCast_nc_abc_apply _ shapeCasts_S8192x2048_S4x2048x2048 b s d
    ⟨b.val * 2048 + s.val, by omega⟩ rfl).trans ?_
  rw [out_exit]
  show outRow _ _ _ = outRow _ _ _
  refine outRow_congr (funext fun k => ?_) (funext fun j => ?_) rfl
  · rw [hid_entry]
    show hidRow _ _ _ = hidRow _ _ _
    exact hidRow_congr (funext fun k' => x_entry m ρ c b s k') (funext fun j => w1_entry m ρ c j) rfl
  · rw [w2_kept]
    exact w2_entry m ρ c j

end Cert.KernelValue

end
-- ==== Proof.lean ====
/-
  A two-layer perceptron with ternary weights and an 8-bit activation, as two tiled kernels, against its plain
  array program, on the extended reals.

  Both programs replace each weight matrix `c` by `s · clip (round (c / s), -1, 1)` with `s = max (mean |c|, ε)`,
  multiply each input row into the first matrix, take the squared positive part `a`, quantize it against the row's
  largest value `M = max (max a, ε)` to `round (a / M · 255) / 255 · M`, and multiply into the transpose of the second
  matrix. The kernel program does the two products over row blocks (64 and 128 rows at a time, the whole weight
  matrix resident) on a `[8192, 2048]` reshape of the input; the array program works on `[4, 2048, ·]` arrays and
  writes its rounding and clipping in the straight-through form `a + (f a − a)`. On the extended reals that form is
  `f a` exactly when `a` is a real number, which is where the precondition is used: for finite inputs the scales are
  positive reals, so every rounded or clipped quantity is a real. Sums are taken over the same index sets on both
  sides, so no other law of the extended reals is needed; changes of float format are the identity.

  The modules: `Spec` (the function, row by row), `Reals` / `Finite` (real numbers among the extended reals, the
  straight-through law, finiteness), `FiniteArgs` (the precondition read), `RefTern` / `RefRows` (the array program
  is the function), `Pay` (what each kernel body stores, at an entry), `Blocks` (from blocks to arrays), `HostSide`
  (the weights and the reshaped input as the first region finds them), `RunValue` (the kernel program's run with its
  result read), `KernelValue` (the result buffer is the function).
-/
import proofs.«160328_j61220463837807_1_alg».proof.Defs
import proofs.«160328_j61220463837807_1_alg».proof.Proof.Gen.Kernel
import proofs.«160328_j61220463837807_1_alg».proof.Proof.Gen.Kernel.Skeleton
import proofs.«160328_j61220463837807_1_alg».proof.Proof.Gen.Kernel.Launch
import proofs.«160328_j61220463837807_1_alg».proof.Proof.Gen.Kernel.Points
import proofs.«160328_j61220463837807_1_alg».proof.Proof.Gen.Kernel.Frame
import proofs.«160328_j61220463837807_1_alg».proof.Proof.Gen.KernelIdeal
import proofs.«160328_j61220463837807_1_alg».proof.Proof.Gen.KernelIdeal.Skeleton
import proofs.«160328_j61220463837807_1_alg».proof.Proof.Gen.KernelIdeal.Launch
import proofs.«160328_j61220463837807_1_alg».proof.Proof.Gen.KernelIdeal.Points
import proofs.«160328_j61220463837807_1_alg».proof.Proof.Gen.KernelIdeal.Frame
import proofs.«160328_j61220463837807_1_alg».proof.Proof.Gen.ReferenceIdeal
import proofs.«160328_j61220463837807_1_alg».proof.Proof.Gen.ReferenceIdeal.Run
import proofs.«160328_j61220463837807_1_alg».proof.Proof.Gen.ReferenceIdeal.Read
import proofs.«160328_j61220463837807_1_alg».proof.Proof.Gen.Pre_finite_inputs
import proofs.«160328_j61220463837807_1_alg».proof.Proof.FiniteArgs
import proofs.«160328_j61220463837807_1_alg».proof.Proof.RefRows
import proofs.«160328_j61220463837807_1_alg».proof.Proof.RunValue
import proofs.«160328_j61220463837807_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program terminates and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The array program terminates and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the two programs, from memories agreeing on finite arguments, end with the same result:
    the specification's function of the arguments. -/
theorem algebraic : Cert.algebraic_KernelIdeal_ReferenceIdeal := by
  intro m ρ m' ρ' hpre hagree
  refine ⟨fun c => Cert.Mlp.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelValue.result_entry m ρ c), (h c).2⟩)
      (Cert.KernelRun.run_result (F := Ideal) m ρ)
  · refine (θ_run Cert.ReferenceIdeal.defs _ _).mono (fun _ h c => ⟨?_, (h c).2⟩)
      (Cert.ReferenceIdeal.Value.run (F := Ideal) m' ρ')
    obtain ⟨h0, h1, h2⟩ := Cert.FiniteArgs.args_real _ _ _ (hpre c)
    rw [(h c).1, Cert.ReferenceIdeal.Read.val_main_v46_eq, (hagree c).1, (hagree c).2.1, (hagree c).2.2]
    exact Cert.RefRows.result_eq _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
